-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_arg5 : FVec F S256x256 .f32) (main_arg6 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x128 .f32) (main_arg1 : FVec F S128x256 .f32) (main_arg2 : FVec F S256 .f32) (main_arg3 : FVec F S128x256 .f32) (main_arg4 : FVec F S256 .f32) (main_arg5 : FVec F S256x256 .f32) (main_arg6 : FVec F S256 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 38
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩

abbrev nBuf : Space → Nat
  | .hbm => 50
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x256, .f32⟩
  | .hbm, ⟨35, _⟩ => ⟨S1x256, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.SageLayer.lean ====
/-
  A GraphSAGE layer with a two-layer network on the aggregated neighbours, as ONE function of its arrays, entry by
  entry, over the extended reals.

  For node features `x`, aggregated neighbour features `h` (one row per node), the self weights `Ws, bs` and the
  neighbour network's weights `W1, b1`, `W2, b2`, the layer's output at node `p` and output feature `q` is

      (∑ k, x (p,k) · Ws (k,q) + bs q)  +  (∑ j, max (∑ k, h (p,k) · W1 (k,j) + b1 j) 0 · W2 (j,q) + b2 q).

  The zero of the rectifier is kept as the float word it is written with; both programs write the same word. The
  number of rows is a parameter: a block of rows of the output is the same function of the matching block of rows of
  `x` and `h`, because an entry depends on row `p` of `x` and of `h` only (`entry_congr_rows`).
-/
import Idealize.ShloMosaic.Lib.ValueIdx
import Idealize.ShloMosaic.PureOps.Ideal

noncomputable section

open scoped BigOperators

namespace Cert.SageLayer

open Idealize.ShloMosaic Idealize.ShloMosaic.ValueIdx

/-- One dense layer at entry `(p, q)`: the row `p` of `x` against the column `q` of `W`, plus the bias at `q`. -/
def dense {A K B : Nat} (x : (⟨2, ![A, K]⟩ : Shape).Idx → EReal) (W : (⟨2, ![K, B]⟩ : Shape).Idx → EReal)
    (b : Fin B → EReal) (p : Fin A) (q : Fin B) : EReal :=
  (∑ k : Fin K, x (ix2 p k) * W (ix2 k q)) + b q

/-- The layer at node `p` and output feature `q`: the self transform plus the network on the neighbours' mean. -/
def entry {A : Nat} (x h : (⟨2, ![A, 128]⟩ : Shape).Idx → EReal)
    (Ws : (⟨2, ![128, 256]⟩ : Shape).Idx → EReal) (bs : Fin 256 → EReal)
    (W1 : (⟨2, ![128, 256]⟩ : Shape).Idx → EReal) (b1 : Fin 256 → EReal)
    (W2 : (⟨2, ![256, 256]⟩ : Shape).Idx → EReal) (b2 : Fin 256 → EReal) (p : Fin A) (q : Fin 256) : EReal :=
  dense x Ws bs p q
    + ((∑ j : Fin 256, max (dense h W1 b1 p j) (Ideal.ofBits .f32 0x00000000#32) * W2 (ix2 j q)) + b2 q)

/-- A dense layer's entry depends on row `p` of its input only. -/
theorem dense_congr_row {A A' K B : Nat} (x : (⟨2, ![A, K]⟩ : Shape).Idx → EReal) (x' : (⟨2, ![A', K]⟩ : Shape).Idx → EReal)
    (W : (⟨2, ![K, B]⟩ : Shape).Idx → EReal) (b : Fin B → EReal) (p : Fin A) (p' : Fin A') (q : Fin B)
    (hx : ∀ k : Fin K, x (ix2 p k) = x' (ix2 p' k)) : dense x W b p q = dense x' W b p' q := by
  unfold dense
  exact congrArg (· + b q) (Finset.sum_congr rfl fun k _ => by rw [hx k])

/-- The layer's entry depends on row `p` of the features and of the neighbours' mean only. -/
theorem entry_congr_rows {A A' : Nat} (x h : (⟨2, ![A, 128]⟩ : Shape).Idx → EReal) (x' h' : (⟨2, ![A', 128]⟩ : Shape).Idx → EReal)
    (Ws : (⟨2, ![128, 256]⟩ : Shape).Idx → EReal) (bs : Fin 256 → EReal)
    (W1 : (⟨2, ![128, 256]⟩ : Shape).Idx → EReal) (b1 : Fin 256 → EReal)
    (W2 : (⟨2, ![256, 256]⟩ : Shape).Idx → EReal) (b2 : Fin 256 → EReal) (p : Fin A) (p' : Fin A') (q : Fin 256)
    (hx : ∀ k : Fin 128, x (ix2 p k) = x' (ix2 p' k)) (hh : ∀ k : Fin 128, h (ix2 p k) = h' (ix2 p' k)) :
    entry x h Ws bs W1 b1 W2 b2 p q = entry x' h' Ws bs W1 b1 W2 b2 p' q := by
  unfold entry
  rw [dense_congr_row x x' Ws bs p p' q hx]
  refine congrArg (fun s => dense x' Ws bs p' q + (s + b2 q)) (Finset.sum_congr rfl fun j _ => ?_)
  rw [dense_congr_row h h' W1 b1 p p' j hh]

/-- The layer's entry depends on the three biases through their values only. -/
theorem entry_congr_bias {A : Nat} (x h : (⟨2, ![A, 128]⟩ : Shape).Idx → EReal)
    (Ws : (⟨2, ![128, 256]⟩ : Shape).Idx → EReal) (bs bs' : Fin 256 → EReal)
    (W1 : (⟨2, ![128, 256]⟩ : Shape).Idx → EReal) (b1 b1' : Fin 256 → EReal)
    (W2 : (⟨2, ![256, 256]⟩ : Shape).Idx → EReal) (b2 b2' : Fin 256 → EReal) (p : Fin A) (q : Fin 256)
    (hs : ∀ j, bs j = bs' j) (h1 : ∀ j, b1 j = b1' j) (h2 : ∀ j, b2 j = b2' j) :
    entry x h Ws bs W1 b1 W2 b2 p q = entry x h Ws bs' W1 b1' W2 b2' p q := by
  obtain rfl : bs = bs' := funext hs
  obtain rfl : b1 = b1' := funext h1
  obtain rfl : b2 = b2' := funext h2
  rfl

/-- The whole output array: `entry` at the index's two coordinates. -/
def out (x h : (⟨2, ![50000, 128]⟩ : Shape).Idx → EReal)
    (Ws : (⟨2, ![128, 256]⟩ : Shape).Idx → EReal) (bs : (⟨1, ![256]⟩ : Shape).Idx → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal) :
    (⟨2, ![50000, 256]⟩ : Shape).Idx → EReal :=
  fun i => entry x h Ws (fun q => bs (ix1 q)) W1 (fun q => b1 (ix1 q)) W2 (fun q => b2 (ix1 q)) (i 0) (i 1)

theorem out_apply (x h : (⟨2, ![50000, 128]⟩ : Shape).Idx → EReal)
    (Ws : (⟨2, ![128, 256]⟩ : Shape).Idx → EReal) (bs : (⟨1, ![256]⟩ : Shape).Idx → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal) (p : Fin 50000) (q : Fin 256) :
    out x h Ws bs W1 b1 W2 b2 (ix2 p q)
      = entry x h Ws (fun q => bs (ix1 q)) W1 (fun q => b1 (ix1 q)) W2 (fun q => b2 (ix1 q)) p q := rfl

end Cert.SageLayer

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.KernelBlock.lean ====
/-
  What the kernel body stores, entry by entry: for the blocks it loads — a block of rows of the features and of the
  neighbours' mean, the three weight matrices whole and the three biases as rows — the stored block at `(p, q)` is the
  layer's entry at row `p` and column `q` of those blocks.

  A rounding to a narrower format is the identity on the extended reals, a matrix-unit product into the zero splat is
  the sum over the contracted coordinate, and a bias row broadcast down the block is read at the column; the
  kernel's dimension numbers are those of a plain product.
-/
import proofs.«165314_j32727650795829_1_alg».proof.Proof.Gen.KernelIdeal.Skeleton
import proofs.«165314_j32727650795829_1_alg».proof.Proof.SageLayer
import proofs.«165314_j32727650795829_1_alg».proof.Proof.LibPlainMatmul
import Idealize.ShloMosaic.Lib.Pipeline.Value

noncomputable section

open scoped BigOperators

namespace Cert.KernelIdeal.BlockValue

open Cert.KernelIdeal Cert.KernelIdeal.Gen Idealize.ShloMosaic Idealize.ShloMosaic.ValueIdx

/-- A bias held as one row, re-cast to its own shape and broadcast down `A` rows, is read at the column. -/
theorem bias_row_apply {A B : Nat} (hB : B ≠ 1) (b : (⟨2, ![1, B]⟩ : Shape).Idx → EReal)
    (hc : (⟨2, ![1, B]⟩ : Shape).ShapeCasts ⟨2, ![1, B]⟩) (hb : (⟨2, ![1, B]⟩ : Shape).Broadcasts ⟨2, ![A, B]⟩)
    (p : Fin A) (q : Fin B) :
    broadcastTo ⟨2, ![A, B]⟩ (shapeCast ⟨2, ![1, B]⟩ b hc) hb (ix2 p q) = b (ix2 0 q) := by
  rw [shapeCast_self]
  refine broadcastTo_apply b hb (ix2 p q) (ix2 0 q) fun a => ?_
  match a with
  | ⟨0, _⟩ => show (0 : Nat) = if (1 : Nat) = 1 then 0 else _; rw [if_pos rfl]
  | ⟨1, _⟩ => show q.val = if B = 1 then 0 else _; rw [if_neg hB]; rfl

/-- One dense layer as the kernel computes it — a plain product into the zero splat plus the broadcast bias row — is
    the layer's `dense` at every entry, whatever the operands' formats. -/
theorem dense_block {A K B : Nat} {φ₁ φ₂ : FTy} (hB : B ≠ 1) (lhs : FVec Ideal ⟨2, ![A, K]⟩ φ₁) (rhs : FVec Ideal ⟨2, ![K, B]⟩ φ₂)
    (b : FVec Ideal ⟨2, ![1, B]⟩ .f32)
    (hc : (⟨2, ![1, B]⟩ : Shape).ShapeCasts ⟨2, ![1, B]⟩) (hb : (⟨2, ![1, B]⟩ : Shape).Broadcasts ⟨2, ![A, B]⟩)
    (p : Fin A) (q : Fin B) :
    addf (matmul (DotDims.plain A K B) none lhs rhs (constant (F := Ideal) ⟨2, ![A, B]⟩ .f32 0x00000000#32))
        (broadcastTo ⟨2, ![A, B]⟩ (shapeCast ⟨2, ![1, B]⟩ b hc) hb) (ix2 p q)
      = Cert.SageLayer.dense lhs rhs (fun q => b (ix2 0 q)) p q := by
  refine (addf_apply _ _ (ix2 p q)).trans ?_
  unfold Cert.SageLayer.dense
  rw [Cert.PlainMatmul.matmul_zero_apply, bias_row_apply hB]

/-- THE STORED BLOCK at `(p, q)` is the layer's entry over the loaded blocks. -/
theorem pay_apply (v0 v2 : Vec Ideal S2000x128 .f32) (v5 v7 : Vec Ideal S128x256 .f32) (v9 : Vec Ideal S256x256 .f32)
    (v12 v17 v25 : Vec Ideal S1x256 .f32) (p : Fin 2000) (q : Fin 256) :
    k0_pay1 (F := Ideal) v0 v2 v5 v7 v9 v12 v17 v25 (ix2 p q)
      = Cert.SageLayer.entry v0 v2 v5 (fun q => v12 (ix2 0 q)) v7 (fun q => v17 (ix2 0 q)) v9 (fun q => v25 (ix2 0 q)) p q := by
  unfold k0_pay1
  refine (addf_apply _ _ (ix2 p q)).trans ?_
  unfold Cert.SageLayer.entry
  refine congrArg₂ (· + ·) ?_ ?_
  · exact dense_block (by decide) (truncf .bf16 v0 bitsLt_bf16_f32) (truncf .bf16 v5 bitsLt_bf16_f32) v12 _ _ p q
  · refine (dense_block (by decide) _ (truncf .bf16 v9 bitsLt_bf16_f32) v25 _ _ p q).trans ?_
    unfold Cert.SageLayer.dense
    refine congrArg (· + v25 (ix2 0 q)) (Finset.sum_congr rfl fun j _ => ?_)
    refine congrArg (· * v9 (ix2 j q)) ?_
    show max _ _ = max _ _
    refine congrArg (max · (Ideal.ofBits .f32 0x00000000#32)) ?_
    rw [shapeCast_self]
    exact dense_block (by decide) (truncf .bf16 v2 bitsLt_bf16_f32) (truncf .bf16 v7 bitsLt_bf16_f32) v17 _ _ p j

end Cert.KernelIdeal.BlockValue

end
-- ==== Proof.RegionEntry.lean ====
/-
  What the kernel's operand arrays hold when the pipelined region is entered, for the four arrays the host computes
  before it: the neighbours' mean — the gathered source rows summed per destination node and divided by the node's
  in-degree, at least one — and the three biases viewed as rows.

  The mean is the SAME function of the features and the two edge arrays as the reference's stage of that name: both
  programs spell it with the same operations in the same order, so the two terms are one. It is never opened.
-/
import proofs.«165314_j32727650795829_1_alg».proof.Proof.Gen.KernelIdeal.Frame
import proofs.«165314_j32727650795829_1_alg».proof.Proof.Gen.ReferenceIdeal.Read
import Idealize.ShloMosaic.Lib.StableHlo.Run
import Idealize.ShloMosaic.Lib.Pipeline.Value

noncomputable section

namespace Cert.KernelIdeal.RegionEntry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

set_option maxHeartbeats 2000000 in
/-- The second operand of the kernel is the neighbours' mean of the launch memory's features and edge arrays. -/
theorem mean_eq (c : Dev nD) :
    (V m c main_v18 : S50000x128.Idx → EReal)
      = Cert.ReferenceIdeal.Read.val_main_v18 (F := Ideal) (m ((c : Thread nD τ).loc main_arg0))
          (m ((c : Thread nD τ).loc main_arg7)) (m ((c : Thread nD τ).loc main_arg8)) := by
  dsimp only [Gen.V, Gen.hostOps0]
  after_results_simp
  rfl

/-- The self bias as a row. -/
theorem bias_self_eq (c : Dev nD) :
    (V m c main_v19 : S1x256.Idx → EReal) = shapeCast S1x256 (m ((c : Thread nD τ).loc main_arg2)) shapeCasts_S256_S1x256 := by
  dsimp only [Gen.V, Gen.hostOps0]
  after_results
  rfl

/-- The first layer's bias as a row. -/
theorem bias1_eq (c : Dev nD) :
    (V m c main_v20 : S1x256.Idx → EReal) = shapeCast S1x256 (m ((c : Thread nD τ).loc main_arg4)) shapeCasts_S256_S1x256 := by
  dsimp only [Gen.V, Gen.hostOps0]
  after_results
  rfl

/-- The second layer's bias as a row. -/
theorem bias2_eq (c : Dev nD) :
    (V m c main_v21 : S1x256.Idx → EReal) = shapeCast S1x256 (m ((c : Thread nD τ).loc main_arg6)) shapeCasts_S256_S1x256 := by
  dsimp only [Gen.V, Gen.hostOps0]
  after_results
  rfl

/-- A vector of 256 entries viewed as one row reads, at column `q` of that row, its entry `q`. -/
theorem row_apply (b : S256.Idx → EReal) (q : Fin 256) :
    shapeCast S1x256 b shapeCasts_S256_S1x256 (ix2 0 q) = b (ix1 q) := by
  refine shapeCast_apply b shapeCasts_S256_S1x256 (ix2 0 q) (ix1 q) ?_
  rw [Shape.rowMajor_val_one, Shape.rowMajor_val_two]
  show q.val = 0 * 256 + q.val
  omega

end Cert.KernelIdeal.RegionEntry

end
-- ==== Proof.KernelArray.lean ====
/-
  From blocks to the array: the kernel's output array after the run is the layer of the arrays the region finds.

  The grid has 25 points; at point `t` the features, the neighbours' mean and the output move together through the
  blocks of rows `2000·t … 2000·t + 1999`, while the three weight matrices and the three bias rows are each one block,
  the whole array, at every point. So what point `t` writes back is the block of rows `2000·t …` of ONE function of
  the arrays (the layer's entry depends on its own row of the features and of the mean only), and the 25 blocks
  cover the 50000 rows: row `r` lies in the block of point `r / 2000`.
-/
import proofs.«165314_j32727650795829_1_alg».proof.Proof.Gen.KernelIdeal.Value
import proofs.«165314_j32727650795829_1_alg».proof.Proof.KernelBlock
import proofs.«165314_j32727650795829_1_alg».proof.Proof.RegionEntry

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zero_off : (![0, 0] : Fin 2 → Nat) = fun _ => 0 := funext fun a => by fin_cases a <;> rfl

/-- The block index of every window at every grid point: the row-tiled windows are at block `t` of the rows, the
    others at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 25 := lt_of_lt_of_eq t.isLt N_0

/-- Row `p` of the block of point `t` is row `2000·t + p` of the array. -/
def row (t : Fin cfg0.N) (p : Fin 2000) : Fin 50000 :=
  ⟨t.val * 2000 + p.val, by have := point_lt t; have := p.isLt; omega⟩

/-! ## Each window's block at a point, read off ANY contents of its array

Stated for arbitrary contents `X` of the window's array: the block is a re-indexing of the array, whatever the
array holds. -/

/-- Window 0 (the features): entry `(p, k)` of block `t` is entry `(2000·t + p, k)` of the array. -/
theorem rows_read0 (X : S50000x128.Idx → EReal) (t : Fin cfg0.N) (p : Fin 2000) (k : Fin 128) :
    ((cfg0.win 0).blk t).view.read (Elt Ideal) X (ix2 p k) = X (ix2 (row t p) k) := by
  obtain ⟨e0, e1, -⟩ := idx_facts t
  show X (((cfg0.win 0).blk t).view.emb (ix2 p k)) = X (ix2 (row t p) k)
  have h : ((cfg0.win 0).blk t).view.emb (ix2 p k) = ix2 (row t p) k := by
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  rw [h]

/-- Window 1 (the neighbours' mean): the same rows. -/
theorem rows_read1 (X : S50000x128.Idx → EReal) (t : Fin cfg0.N) (p : Fin 2000) (k : Fin 128) :
    ((cfg0.win 1).blk t).view.read (Elt Ideal) X (ix2 p k) = X (ix2 (row t p) k) := by
  obtain ⟨-, -, e0, e1, -⟩ := idx_facts t
  show X (((cfg0.win 1).blk t).view.emb (ix2 p k)) = X (ix2 (row t p) k)
  have h : ((cfg0.win 1).blk t).view.emb (ix2 p k) = ix2 (row t p) k := by
    funext a; apply Fin.ext
    match a with
    | ⟨0, _⟩ => show win0_1.index t (0 : Fin 2) * 2000 + 1 * p.val = t.val * 2000 + p.val; omega
    | ⟨1, _⟩ => show win0_1.index t (1 : Fin 2) * 128 + 1 * k.val = k.val; omega
  rw [h]

/-- Windows 2, 4, 6 (the weight matrices) and 3, 5, 7 (the bias rows): the one block is the whole array. -/
theorem whole_read2 (X : S128x256.Idx → EReal) (t : Fin cfg0.N) : ((cfg0.win 2).blk t).view.read (Elt Ideal) X = X := by
  obtain ⟨-, -, -, -, e0, e1, -⟩ := idx_facts t
  funext y
  show X (((cfg0.win 2).blk t).view.emb y) = X y
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 256 + 1 * (y 1).val = (y 1).val; omega
  rw [h]

theorem whole_read3 (X : S1x256.Idx → EReal) (t : Fin cfg0.N) : ((cfg0.win 3).blk t).view.read (Elt Ideal) X = X := by
  obtain ⟨-, -, -, -, -, -, e0, e1, -⟩ := idx_facts t
  funext y
  show X (((cfg0.win 3).blk t).view.emb y) = X y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 256 + 1 * (y 1).val = (y 1).val; omega
  rw [h]

theorem whole_read4 (X : S128x256.Idx → EReal) (t : Fin cfg0.N) : ((cfg0.win 4).blk t).view.read (Elt Ideal) X = X := by
  obtain ⟨-, -, -, -, -, -, -, -, e0, e1, -⟩ := idx_facts t
  funext y
  show X (((cfg0.win 4).blk t).view.emb y) = X y
  have h : ((cfg0.win 4).blk t).view.emb y = y := by
    funext a; apply Fin.ext
    match a with
    | ⟨0, _⟩ => show win0_4.index t (0 : Fin 2) * 128 + 1 * (y 0).val = (y 0).val; omega
    | ⟨1, _⟩ => show win0_4.index t (1 : Fin 2) * 256 + 1 * (y 1).val = (y 1).val; omega
  rw [h]

theorem whole_read5 (X : S1x256.Idx → EReal) (t : Fin cfg0.N) : ((cfg0.win 5).blk t).view.read (Elt Ideal) X = X := by
  obtain ⟨-, -, -, -, -, -, -, -, -, -, e0, e1, -⟩ := idx_facts t
  funext y
  show X (((cfg0.win 5).blk t).view.emb y) = X y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 256 + 1 * (y 1).val = (y 1).val; omega
  rw [h]

theorem whole_read6 (X : S256x256.Idx → EReal) (t : Fin cfg0.N) : ((cfg0.win 6).blk t).view.read (Elt Ideal) X = X := by
  obtain ⟨-, -, -, -, -, -, -, -, -, -, -, -, e0, e1, -⟩ := idx_facts t
  funext y
  show X (((cfg0.win 6).blk t).view.emb y) = X y
  have h : ((cfg0.win 6).blk t).view.emb y = y := by
    funext a; apply Fin.ext
    match a with
    | ⟨0, _⟩ => show win0_6.index t (0 : Fin 2) * 256 + 1 * (y 0).val = (y 0).val; omega
    | ⟨1, _⟩ => show win0_6.index t (1 : Fin 2) * 256 + 1 * (y 1).val = (y 1).val; omega
  rw [h]

theorem whole_read7 (X : S1x256.Idx → EReal) (t : Fin cfg0.N) : ((cfg0.win 7).blk t).view.read (Elt Ideal) X = X := by
  obtain ⟨-, -, -, -, -, -, -, -, -, -, -, -, -, -, e0, e1, -⟩ := idx_facts t
  funext y
  show X (((cfg0.win 7).blk t).view.emb y) = X y
  have h : ((cfg0.win 7).blk t).view.emb y = y := by
    funext a; apply Fin.ext
    match a with
    | ⟨0, _⟩ => show win0_7.index t (0 : Fin 2) * 1 + 1 * (y 0).val = (y 0).val; omega
    | ⟨1, _⟩ => show win0_7.index t (1 : Fin 2) * 256 + 1 * (y 1).val = (y 1).val; omega
  rw [h]

/-! ## The same reads of the arrays the region finds (the window's block is, by definition, that read) -/

theorem read_feat (c : Dev nD) (t : Fin cfg0.N) (p : Fin 2000) (k : Fin 128) :
    iblk m c 0 t (ix2 p k) = (V m c main_arg0 : S50000x128.Idx → EReal) (ix2 (row t p) k) := by
  unfold iblk
  exact rows_read0 (V m c main_arg0) t p k

theorem read_mean (c : Dev nD) (t : Fin cfg0.N) (p : Fin 2000) (k : Fin 128) :
    iblk m c 1 t (ix2 p k) = (V m c main_v18 : S50000x128.Idx → EReal) (ix2 (row t p) k) := by
  unfold iblk
  exact rows_read1 (V m c main_v18) t p k

theorem read_wself (c : Dev nD) (t : Fin cfg0.N) : (iblk m c 2 t : S128x256.Idx → EReal) = V m c main_arg1 := by
  unfold iblk
  exact whole_read2 (V m c main_arg1) t

theorem read_bself (c : Dev nD) (t : Fin cfg0.N) : (iblk m c 3 t : S1x256.Idx → EReal) = V m c main_v19 := by
  unfold iblk
  exact whole_read3 (V m c main_v19) t

theorem read_w1 (c : Dev nD) (t : Fin cfg0.N) : (iblk m c 4 t : S128x256.Idx → EReal) = V m c main_arg3 := by
  unfold iblk
  exact whole_read4 (V m c main_arg3) t

theorem read_b1 (c : Dev nD) (t : Fin cfg0.N) : (iblk m c 5 t : S1x256.Idx → EReal) = V m c main_v20 := by
  unfold iblk
  exact whole_read5 (V m c main_v20) t

theorem read_w2 (c : Dev nD) (t : Fin cfg0.N) : (iblk m c 6 t : S256x256.Idx → EReal) = V m c main_arg5 := by
  unfold iblk
  exact whole_read6 (V m c main_arg5) t

theorem read_b2 (c : Dev nD) (t : Fin cfg0.N) : (iblk m c 7 t : S1x256.Idx → EReal) = V m c main_v21 := by
  unfold iblk
  exact whole_read7 (V m c main_v21) t

/-- Entry `(p, q)` of the output's block at point `t` is entry `(2000·t + p, q)` of the output array. -/
theorem out_emb (t : Fin cfg0.N) (p : Fin 2000) (q : Fin 256) :
    ((cfg0.win 8).blk t).view.emb (ix2 p q) = ix2 (row t p) q := by
  obtain ⟨-, -, -, -, -, -, -, -, -, -, -, -, -, -, -, -, e0, e1⟩ := idx_facts t
  funext a; apply Fin.ext
  match a with
  | ⟨0, _⟩ => show win0_8.index t (0 : Fin 2) * 2000 + 1 * p.val = t.val * 2000 + p.val; omega
  | ⟨1, _⟩ => show win0_8.index t (1 : Fin 2) * 256 + 1 * q.val = q.val; omega

/-! ## The array after the run -/

/-- The layer of the arrays as the region finds them, the biases being rows. -/
def layerAtEntry (c : Dev nD) : S50000x256.Idx → EReal := fun i =>
  Cert.SageLayer.entry (A := 50000) (V m c main_arg0) (V m c main_v18) (V m c main_arg1) (fun q => V m c main_v19 (ix2 0 q))
    (V m c main_arg3) (fun q => V m c main_v20 (ix2 0 q)) (V m c main_arg5) (fun q => V m c main_v21 (ix2 0 q)) (i 0) (i 1)

/-- WHAT POINT `t` WRITES BACK is block `t` of that layer. -/
theorem flushed_eq (c : Dev nD) (t : Fin cfg0.N) :
    (dats m 0 c).flushed 8 t = ((cfg0.win 8).blk t).view.read (Elt Ideal) (layerAtEntry m c) := by
  rw [Cert.KernelIdeal.Value.flushed8]
  unfold out0_8
  rw [View.canon_unit_zero zero_off]
  simp only [View.ld_unit_zero (S := S2000x128) zero_off, View.ld_unit_zero (S := S128x256) zero_off,
    View.ld_unit_zero (S := S256x256) zero_off, View.ld_unit_zero (S := S1x256) zero_off]
  show (k0_pay1 (F := Ideal) (iblk m c 0 t) (iblk m c 1 t) (iblk m c 2 t) (iblk m c 4 t) (iblk m c 6 t) (iblk m c 3 t)
      (iblk m c 5 t) (iblk m c 7 t) : S2000x256.Idx → EReal)
    = fun y : S2000x256.Idx => layerAtEntry m c (((cfg0.win 8).blk t).view.emb y)
  funext y
  obtain ⟨p, q, rfl⟩ : ∃ (p : Fin 2000) (q : Fin 256), y = ix2 p q := ⟨y 0, y 1, eq_ix2 y⟩
  refine (Cert.KernelIdeal.BlockValue.pay_apply (iblk m c 0 t) (iblk m c 1 t) (iblk m c 2 t) (iblk m c 4 t) (iblk m c 6 t)
    (iblk m c 3 t) (iblk m c 5 t) (iblk m c 7 t) p q).trans ?_
  show _ = layerAtEntry m c (((cfg0.win 8).blk t).view.emb (ix2 p q))
  rw [out_emb t p q, read_wself m c t, read_bself m c t, read_w1 m c t, read_b1 m c t, read_w2 m c t, read_b2 m c t]
  exact Cert.SageLayer.entry_congr_rows (iblk m c 0 t) (iblk m c 1 t) (V m c main_arg0) (V m c main_v18) (V m c main_arg1)
    (fun q => V m c main_v19 (ix2 0 q)) (V m c main_arg3) (fun q => V m c main_v20 (ix2 0 q)) (V m c main_arg5)
    (fun q => V m c main_v21 (ix2 0 q)) p (row t p) q (fun k => read_feat m c t p k) (fun k => read_mean m c t p k)

/-- An index of the output array is in point `t`'s block iff each coordinate is in the block's range on its axis. -/
theorem mem_blk (t : Fin cfg0.N) (i : S50000x256.Idx) :
    i ∈ ((cfg0.win 8).blk t).view.set ↔ ∀ a : Fin 2, win0_8.index t a * S2000x256.size a ≤ (i a).val
      ∧ (i a).val < win0_8.index t a * S2000x256.size a + S2000x256.size a := by
  show i ∈ ((View.whole main_v22).slice (win0_8.rect t)).set ↔ _
  rw [View.set_slice_whole, Rect.mem_set_unit]
  exact Iff.rfl

/-- The 25 blocks cover the array: row `r` is in the block of point `r / 2000`. -/
theorem cover (i : S50000x256.Idx) :
    ∃ t : Fin cfg0.N, (cfg0.win 8).flush t = true ∧ i ∈ ((cfg0.win 8).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, -, -, -, -, -, -, -, -, -, -, e0, e1⟩ := idx_facts t
  refine ⟨t, flush0_8 t, ?_⟩
  rw [mem_blk]
  intro a
  match a with
  | ⟨0, _⟩ =>
    show win0_8.index t (0 : Fin 2) * 2000 ≤ (i 0).val ∧ (i 0).val < win0_8.index t (0 : Fin 2) * 2000 + 2000
    omega
  | ⟨1, _⟩ =>
    show win0_8.index t (1 : Fin 2) * 256 ≤ (i 1).val ∧ (i 1).val < win0_8.index t (1 : Fin 2) * 256 + 256
    omega

/-- THE OUTPUT ARRAY after the run is the layer of the arrays the region finds. -/
theorem final (c : Dev nD) : (dats m 0 c).arrAt 8 cfg0.N = layerAtEntry m c :=
  (dats m 0 c).arrAt_eq_of_cover 8 (layerAtEntry m c) (fun t _ => flushed_eq m c t) cover

/-- … which is the layer of the launch memory's arguments over the neighbours' mean of the features and edges. -/
theorem layer_of_args (c : Dev nD) :
    layerAtEntry m c = Cert.SageLayer.out (m ((c : Thread nD τ).loc main_arg0))
      (Cert.ReferenceIdeal.Read.val_main_v18 (F := Ideal) (m ((c : Thread nD τ).loc main_arg0))
        (m ((c : Thread nD τ).loc main_arg7)) (m ((c : Thread nD τ).loc main_arg8)))
      (m ((c : Thread nD τ).loc main_arg1)) (m ((c : Thread nD τ).loc main_arg2))
      (m ((c : Thread nD τ).loc main_arg3)) (m ((c : Thread nD τ).loc main_arg4))
      (m ((c : Thread nD τ).loc main_arg5)) (m ((c : Thread nD τ).loc main_arg6)) := by
  funext i
  obtain ⟨p, q, rfl⟩ : ∃ (p : Fin 50000) (q : Fin 256), i = ix2 p q := ⟨i 0, i 1, eq_ix2 i⟩
  rw [Cert.SageLayer.out_apply]
  show Cert.SageLayer.entry (A := 50000) (V m c main_arg0) (V m c main_v18) (V m c main_arg1) (fun q => V m c main_v19 (ix2 0 q))
    (V m c main_arg3) (fun q => V m c main_v20 (ix2 0 q)) (V m c main_arg5) (fun q => V m c main_v21 (ix2 0 q)) p q = _
  rw [V_main_arg0 m c, V_main_arg1 m c, V_main_arg3 m c, V_main_arg5 m c, Cert.KernelIdeal.RegionEntry.mean_eq m c,
    Cert.KernelIdeal.RegionEntry.bias_self_eq m c, Cert.KernelIdeal.RegionEntry.bias1_eq m c,
    Cert.KernelIdeal.RegionEntry.bias2_eq m c]
  exact Cert.SageLayer.entry_congr_bias _ _ _ _ _ _ _ _ _ _ _ p q
    (fun j => Cert.KernelIdeal.RegionEntry.row_apply _ j) (fun j => Cert.KernelIdeal.RegionEntry.row_apply _ j)
    (fun j => Cert.KernelIdeal.RegionEntry.row_apply _ j)

/-- THE KERNEL'S RUN: every weakly fair execution ends with the result at the layer of the arguments, the arguments
    unchanged. -/
theorem run : θ_run defs (onTc (τ := τ) (main (F := Ideal))) ⟨m, fun _ => 0, ρ⟩ fun r => ∀ c : Dev nD,
      r.2.mem ((c : Thread nD τ).loc main_v22) = Cert.SageLayer.out (m ((c : Thread nD τ).loc main_arg0))
        (Cert.ReferenceIdeal.Read.val_main_v18 (F := Ideal) (m ((c : Thread nD τ).loc main_arg0))
          (m ((c : Thread nD τ).loc main_arg7)) (m ((c : Thread nD τ).loc main_arg8)))
        (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (layer_of_args m c)), (h c).2⟩)
    (Cert.KernelIdeal.Value.run_blocks m ρ)

end Cert.KernelIdeal.ArrayValue

end
-- ==== Proof.ReferenceLayer.lean ====
/-
  The reference computes the layer: its last stage, as a function of the argument arrays, is `SageLayer.out` of the
  features, the neighbours' mean (the stage the division writes, kept as ONE function of the features and the two edge
  arrays and never opened), and the six weight arrays.

  Entry by entry: the host's two-operand sums are the extended reals' sums, each `dot_general` is a sum over its one
  contracted coordinate, each bias is broadcast along the rows, and the rectifier is the maximum with the zero word.
-/
import proofs.«165314_j32727650795829_1_alg».proof.Proof.Gen.ReferenceIdeal.Read
import proofs.«165314_j32727650795829_1_alg».proof.Proof.SageLayer

noncomputable section

open scoped BigOperators

namespace Cert.ReferenceIdeal.LayerValue

open Cert.ReferenceIdeal Cert.ReferenceIdeal.Read Idealize.ShloMosaic Idealize.ShloMosaic.ValueIdx

/-! ## Where each stage reads its operands: the generated index maps at an entry `(p, q)` -/

theorem lidx28 (p : Fin 50000) (q : Fin 256) (k : Fin 128) : lidx_main_v28 (ix2 p q) k = ix2 p k :=
  funext fun a => Fin.ext (by match a with | ⟨0, _⟩ => rfl | ⟨1, _⟩ => rfl)
theorem ridx28 (p : Fin 50000) (q : Fin 256) (k : Fin 128) : ridx_main_v28 (ix2 p q) k = ix2 k q :=
  funext fun a => Fin.ext (by match a with | ⟨0, _⟩ => rfl | ⟨1, _⟩ => rfl)
theorem lidx24 (p : Fin 50000) (q : Fin 256) (j : Fin 256) : lidx_main_v24 (ix2 p q) j = ix2 p j :=
  funext fun a => Fin.ext (by match a with | ⟨0, _⟩ => rfl | ⟨1, _⟩ => rfl)
theorem ridx24 (p : Fin 50000) (q : Fin 256) (j : Fin 256) : ridx_main_v24 (ix2 p q) j = ix2 j q :=
  funext fun a => Fin.ext (by match a with | ⟨0, _⟩ => rfl | ⟨1, _⟩ => rfl)
theorem lidx19 (p : Fin 50000) (j : Fin 256) (k : Fin 128) : lidx_main_v19 (ix2 p j) k = ix2 p k :=
  funext fun a => Fin.ext (by match a with | ⟨0, _⟩ => rfl | ⟨1, _⟩ => rfl)
theorem ridx19 (p : Fin 50000) (j : Fin 256) (k : Fin 128) : ridx_main_v19 (ix2 p j) k = ix2 k j :=
  funext fun a => Fin.ext (by match a with | ⟨0, _⟩ => rfl | ⟨1, _⟩ => rfl)
/-- A bias laid as a row and broadcast down the rows is read at the column. -/
theorem bias30 (p : Fin 50000) (q : Fin 256) : idx_main_v29 (idx_main_v30 (ix2 p q)) = ix1 q :=
  funext fun a => Fin.ext (by match a with | ⟨0, _⟩ => rfl)
theorem bias26 (p : Fin 50000) (q : Fin 256) : idx_main_v25 (idx_main_v26 (ix2 p q)) = ix1 q :=
  funext fun a => Fin.ext (by match a with | ⟨0, _⟩ => rfl)
theorem bias21 (p : Fin 50000) (j : Fin 256) : idx_main_v20 (idx_main_v21 (ix2 p j)) = ix1 j :=
  funext fun a => Fin.ext (by match a with | ⟨0, _⟩ => rfl)

/-! ## The last stage is the layer -/

/-- The reference's result, at every entry, is the layer's entry over the neighbours' mean `val_main_v18`. -/
theorem result_eq (x0 : S50000x128.Idx → EReal) (x1 : S128x256.Idx → EReal) (x2 : S256.Idx → EReal)
    (x3 : S128x256.Idx → EReal) (x4 : S256.Idx → EReal) (x5 : S256x256.Idx → EReal) (x6 : S256.Idx → EReal)
    (x7 x8 : S800000.Idx → BitVec 32) :
    val_main_v32 (F := Ideal) x0 x1 x2 x3 x4 x5 x6 x7 x8
      = Cert.SageLayer.out x0 (val_main_v18 (F := Ideal) x0 x7 x8) x1 x2 x3 x4 x5 x6 := by
  funext i
  obtain ⟨p, q, rfl⟩ : ∃ (p : Fin 50000) (q : Fin 256), i = ix2 p q := ⟨i 0, i 1, eq_ix2 i⟩
  rw [Cert.SageLayer.out_apply]
  unfold Cert.SageLayer.entry Cert.SageLayer.dense
  rw [val_main_v32_apply, val_main_v31_apply, val_main_v28_apply, val_main_v30_apply, val_main_v29_apply,
    val_main_v27_apply, val_main_v24_apply, val_main_v26_apply, val_main_v25_apply]
  show ((∑ k : Fin 128, x0 (lidx_main_v28 (ix2 p q) k) * x1 (ridx_main_v28 (ix2 p q) k))
        + x2 (idx_main_v29 (idx_main_v30 (ix2 p q))))
      + ((∑ j : Fin 256, val_main_v23 (F := Ideal) x0 x3 x4 x7 x8 (lidx_main_v24 (ix2 p q) j) * x5 (ridx_main_v24 (ix2 p q) j))
        + x6 (idx_main_v25 (idx_main_v26 (ix2 p q)))) = _
  refine congrArg₂ (· + ·) (congrArg₂ (· + ·) (Finset.sum_congr rfl fun k _ => ?_) ?_)
    (congrArg₂ (· + ·) (Finset.sum_congr rfl fun j _ => ?_) ?_)
  · rw [lidx28 p q k, ridx28 p q k]
  · rw [bias30 p q]
  · rw [lidx24 p q j, ridx24 p q j]
    refine congrArg (· * x5 (ix2 j q)) ?_
    rw [val_main_v23_apply, val_main_v22_apply, val_main_v19_apply, val_main_v21_apply, val_main_v20_apply,
      val_main_call0_v0_apply, val_main_call0_cst_apply, bias21 p j]
    show max ((∑ k : Fin 128, val_main_v18 (F := Ideal) x0 x7 x8 (lidx_main_v19 (ix2 p j) k) * x3 (ridx_main_v19 (ix2 p j) k))
        + x4 (ix1 j)) (Ideal.ofBits .f32 0x00000000#32) = _
    refine congrArg (max · (Ideal.ofBits .f32 0x00000000#32)) (congrArg (· + x4 (ix1 j)) (Finset.sum_congr rfl fun k _ => ?_))
    rw [lidx19 p j k, ridx19 p j k]
  · rw [bias26 p q]

end Cert.ReferenceIdeal.LayerValue

end
-- ==== Proof.lean ====
/-
  A GraphSAGE layer's fused kernel against its jnp reference, over the extended reals.

  Both programs first aggregate each node's neighbours on the host with the same operations in the same order:
  gather the source rows of the features along the edges, sum them per destination node, and divide by the node's
  in-degree (at least one). The kernel then computes, for one block of 2000 rows at each of its 25 grid points, what
  the reference computes with whole-array products: the self transform `x · W_self + b_self` plus the two-layer
  network `max (h · W1 + b1) 0 · W2 + b2` on the aggregated rows `h`. On the extended reals a rounding to a narrower
  format is the identity and a matrix-unit product into the zero accumulator is the plain sum over the contracted
  coordinate, so both results are ONE function of the arguments entry by entry (`Cert.SageLayer.out`), the neighbours'
  mean being the same term on both sides. The two sides differ only in tiling, which needs no algebraic law beyond
  `0 + s = s`: nothing here asks the inputs to be finite, and the precondition is not used.

  The frames of the two kernel programs and the kernel's run block by block, and the reference's run read stage by
  stage, are the imported generated modules; the ideal pass rewrote nothing, so the idealization claim is `True`.
-/
import proofs.«165314_j32727650795829_1_alg».proof.Defs
import proofs.«165314_j32727650795829_1_alg».proof.Proof.Gen.Kernel
import proofs.«165314_j32727650795829_1_alg».proof.Proof.Gen.Kernel.Skeleton
import proofs.«165314_j32727650795829_1_alg».proof.Proof.Gen.Kernel.Launch
import proofs.«165314_j32727650795829_1_alg».proof.Proof.Gen.Kernel.Points
import proofs.«165314_j32727650795829_1_alg».proof.Proof.Gen.Kernel.Frame
import proofs.«165314_j32727650795829_1_alg».proof.Proof.Gen.KernelIdeal
import proofs.«165314_j32727650795829_1_alg».proof.Proof.Gen.KernelIdeal.Skeleton
import proofs.«165314_j32727650795829_1_alg».proof.Proof.Gen.KernelIdeal.Launch
import proofs.«165314_j32727650795829_1_alg».proof.Proof.Gen.KernelIdeal.Points
import proofs.«165314_j32727650795829_1_alg».proof.Proof.Gen.KernelIdeal.Frame
import proofs.«165314_j32727650795829_1_alg».proof.Proof.Gen.ReferenceIdeal
import proofs.«165314_j32727650795829_1_alg».proof.Proof.Gen.Pre_finite_inputs
import proofs.«165314_j32727650795829_1_alg».proof.Proof.Gen.KernelIdeal.Value
import proofs.«165314_j32727650795829_1_alg».proof.Proof.Gen.ReferenceIdeal.Run
import proofs.«165314_j32727650795829_1_alg».proof.Proof.Gen.ReferenceIdeal.Read
import proofs.«165314_j32727650795829_1_alg».proof.Proof.KernelArray
import proofs.«165314_j32727650795829_1_alg».proof.Proof.ReferenceLayer
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the layer of those arguments: the kernel's array
    is covered by its 25 blocks of rows, each the layer's entries of its rows; the reference's last stage is the layer
    entry by entry. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  exact (Cert.ReferenceIdeal.Read.val_main_v32_eq _ _ _ _ _ _ _ _ _).trans
    (Cert.ReferenceIdeal.LayerValue.result_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
